-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel

variable [Facts]

def fn {F : FTy → Type} [FloatOps F] (main_arg0 : FVec F S32x512x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  main_v3
-- ==== Kernel.lean ====
abbrev S32x512x768 : Shape := ⟨3, ![32, 512, 768]⟩
abbrev S32x768x768 : Shape := ⟨3, ![32, 768, 768]⟩
abbrev S2x512x768 : Shape := ⟨3, ![2, 512, 768]⟩
abbrev S2x768x768 : Shape := ⟨3, ![2, 768, 768]⟩
abbrev S2x512 : Shape := ⟨2, ![2, 512]⟩
abbrev S2x512x1 : Shape := ⟨3, ![2, 512, 1]⟩

abbrev nBuf : Space → Nat
  | .hbm => 2
  | .vmem => 4
  | .smem => 0
  | _ => 0

abbrev bufTy : (tb : Table) → Fin (tcTables nBuf tb) → BufTy
  | .hbm, ⟨0, _⟩ => ⟨S32x512x768, .f32⟩
  | .hbm, ⟨1, _⟩ => ⟨S32x768x768, .f32⟩
  | .local _ .vmem, ⟨0, _⟩ => ⟨S2x512x768, .f32⟩
  | .local _ .vmem, ⟨1, _⟩ => ⟨S2x512x768, .f32⟩
  | .local _ .vmem, ⟨2, _⟩ => ⟨S2x768x768, .f32⟩
  | .local _ .vmem, ⟨3, _⟩ => ⟨S2x768x768, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x512x768_S2x512x768_0_0_0 : ∀ a, (![0, 0, 0] : Fin 3 → Nat) a + S2x512x768.size a ≤ S2x512x768.size a
  h_S2x512x768 : 0 < S2x512x768.numel
  reduces_S2x512x768_S2x512 : S2x512x768.Reduces [2] S2x512
  shapeCasts_S2x512_S2x512x1 : S2x512.ShapeCasts S2x512x1
  bitsLt_bf16_f32 : FTy.bits .bf16 < FTy.bits .f32
  broadcasts_S2x512x1_S2x512x768 : S2x512x1.Broadcasts S2x512x768
  inb_S2x768x768_S2x768x768_0_0_0 : ∀ a, (![0, 0, 0] : Fin 3 → Nat) a + S2x768x768.size a ≤ S2x768x768.size a
  h_S2x768x768 : 0 < S2x768x768.numel
  dot_S2x512x768_S2x512x768_S2x768x768_1_1_2_2_0_0_wf : DotDims.WF S2x512x768 S2x512x768 S2x768x768 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x768.size a ≤ S32x512x768.size a
  hwx0_0 : ∀ i : grid0.Coords, EltTy.bits .f32 = 32 ∨ (Rect.block (s := S32x512x768) S2x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x768x768.size a ≤ S32x768x768.size a
  hwx0_1 : ∀ i : grid0.Coords, EltTy.bits .f32 = 32 ∨ (Rect.block (s := S32x768x768) S2x768x768.size (cc0_transform_1 i) (hinb0_1 i)).WholeWords (EltTy.packing .f32)

variable [Facts₀]

def dot_S2x512x768_S2x512x768_S2x768x768_1_1_2_2_0_0 : DotDims S2x512x768 S2x512x768 S2x768x768 where
  lhsContracting := [1]
  rhsContracting := [1]
  lhsNonContracting := [2]
  rhsNonContracting := [2]
  lhsBatch := [0]
  rhsBatch := [0]
  wf := dot_S2x512x768_S2x512x768_S2x768x768_1_1_2_2_0_0_wf

abbrev win0_0 : Pipeline.Window sig grid0 :=
  Pipeline.Window.ofSpec (Memref.whole main_arg0) S2x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x768x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S_ : Shape := ⟨0, ![]⟩
abbrev S32x512 : Shape := ⟨2, ![32, 512]⟩
abbrev S32x512x1 : Shape := ⟨3, ![32, 512, 1]⟩
abbrev S32x768x768 : Shape := ⟨3, ![32, 768, 768]⟩

abbrev nBuf : Space → Nat
  | .hbm => 12
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S_, .f32⟩
  | .hbm, ⟨3, _⟩ => ⟨S32x512, .f32⟩
  | .hbm, ⟨4, _⟩ => ⟨S_, .f32⟩
  | .hbm, ⟨5, _⟩ => ⟨S32x512, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x768, .f32⟩
  | .hbm, ⟨10, _⟩ => ⟨S32x512x768, .f32⟩
  | .hbm, ⟨11, _⟩ => ⟨S32x768x768, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S32x512x768_S32x512_d2 : S32x512x768.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x768_0_1_2 : S32x512x1.BroadcastsInDim S32x512x768 (![0, 1, 2] : Fin 3 → Fin S32x512x768.rank)
  dot_S32x512x768_S32x512x768_S32x768x768_1_1_2_2_0_0_wf : DotDims.WF S32x512x768 S32x512x768 S32x768x768 [1] [1] [2] [2] [0] [0]

variable [Facts₀]

def dot_S32x512x768_S32x512x768_S32x768x768_1_1_2_2_0_0 : DotDims S32x512x768 S32x512x768 S32x768x768 where
  lhsContracting := [1]
  rhsContracting := [1]
  lhsNonContracting := [2]
  rhsNonContracting := [2]
  lhsBatch := [0]
  rhsBatch := [0]
  wf := dot_S32x512x768_S32x512x768_S32x768x768_1_1_2_2_0_0_wf

class Facts : Prop extends Facts₀ where

variable [Facts]
-- ==== Proof.Spec.lean ====
/-
  The weighted Gram matrix, as one function of the input array.

  For an array `x` of `B` batches of 512 tokens with 768 features each, token `l` of batch `b` carries the weight
      w[b,l] = sqrt (ε + Σ_j x[b,l,j]²)            (ε the f32 word 0x3727C5AC, about 1e-5),
  and the result at (b, d, e) is the weighted second moment of features `d` and `e` over the tokens of that batch,
      out[b,d,e] = Σ_l (x[b,l,d] · w[b,l]) · x[b,l,e].
  Everything is read on the extended reals, with the products grouped exactly as written, so that no law of
  arithmetic is needed to meet either program: both compute this term.

  The batch extent `B` is a parameter because the same function is read twice: at `B = 32` for a whole array, and at
  `B = 2` for the two batches a grid point holds. An entry depends only on its own batch, which `gramAt_congr` says:
  if batch `b'` of one array is batch `b` of another, their entries at (b', d, e) and (b, d, e) agree.
-/
import Idealize.ShloMosaic.PureOps.Ideal
import Idealize.ShloMosaic.Lib.ValueIdx

noncomputable section

open scoped BigOperators

namespace Cert.WeightedGram

open Idealize.ShloMosaic Idealize.ShloMosaic.ValueIdx

/-- The weight of token `l` of batch `b`: the square root of ε plus the token's squared length. -/
def weight {B : Nat} (x : (⟨3, ![B, 512, 768]⟩ : Shape).Idx → EReal) (b : Fin B) (l : Fin 512) : EReal :=
  Ideal.sqrt (Ideal.ofBits .f32 0x3727C5AC#32 + ∑ j : Fin 768, x (ix3 b l j) * x (ix3 b l j))

/-- The weighted Gram matrix's entry (d, e) of batch `b`. -/
def gramAt {B : Nat} (x : (⟨3, ![B, 512, 768]⟩ : Shape).Idx → EReal) (b : Fin B) (d e : Fin 768) : EReal :=
  ∑ l : Fin 512, (x (ix3 b l d) * weight x b l) * x (ix3 b l e)

/-- The weighted Gram matrices of all batches, as an array. -/
def gram {B : Nat} (x : (⟨3, ![B, 512, 768]⟩ : Shape).Idx → EReal) : (⟨3, ![B, 768, 768]⟩ : Shape).Idx → EReal :=
  fun i => gramAt x (i 0) (i 1) (i 2)

theorem gram_ix3 {B : Nat} (x : (⟨3, ![B, 512, 768]⟩ : Shape).Idx → EReal) (b : Fin B) (d e : Fin 768) :
    gram x (ix3 b d e) = gramAt x b d e := rfl

/-- A token's weight depends only on its own batch. -/
theorem weight_congr {B B' : Nat} (x : (⟨3, ![B, 512, 768]⟩ : Shape).Idx → EReal)
    (y : (⟨3, ![B', 512, 768]⟩ : Shape).Idx → EReal) (b : Fin B) (b' : Fin B')
    (h : ∀ (l : Fin 512) (j : Fin 768), y (ix3 b' l j) = x (ix3 b l j)) (l : Fin 512) :
    weight y b' l = weight x b l := by
  unfold weight
  exact congrArg (fun s => Ideal.sqrt (Ideal.ofBits .f32 0x3727C5AC#32 + s))
    (Finset.sum_congr rfl fun j _ => by rw [h l j])

/-- An entry of the weighted Gram matrix depends only on its own batch. -/
theorem gramAt_congr {B B' : Nat} (x : (⟨3, ![B, 512, 768]⟩ : Shape).Idx → EReal)
    (y : (⟨3, ![B', 512, 768]⟩ : Shape).Idx → EReal) (b : Fin B) (b' : Fin B')
    (h : ∀ (l : Fin 512) (j : Fin 768), y (ix3 b' l j) = x (ix3 b l j)) (d e : Fin 768) :
    gramAt y b' d e = gramAt x b d e := by
  unfold gramAt
  exact Finset.sum_congr rfl fun l _ => by rw [h l d, h l e, weight_congr x y b b' h l]

end Cert.WeightedGram

end
-- ==== Proof.LibTrailingUnit.lean ====
/-
  A trailing unit axis on a rank-2 array, read at an index given by coordinates: the two layout operations of a
  reduction over the LAST axis that keeps the axis (a `sum(..., axis=-1, keepdims=True)` and the broadcast that
  spreads its result back over that axis).

  • `shapeCast_ab_ab1_apply`: an `[a, b]` array cast to `[a, b, 1]` reads, at `(p, q, u)`, the operand at `(p, q)`:
    the two indices have the same row-major position, since the new axis has one coordinate, `0`.
  • `broadcastTo_ab1_abc_apply`: an `[a, b, 1]` array broadcast to `[a, b, c]` reads, at `(p, q, r)`, the operand at
    `(p, q, 0)`: the first two axes are kept (or, where an extent is one, have only the coordinate `0`) and the unit
    axis is read at its one coordinate.
  The extents are variables, so the lemmas apply at any sizes by unification.
-/
import Idealize.ShloMosaic.Lib.Pipeline.Value
import Idealize.ShloMosaic.Lib.ValueIdx

namespace Cert.LibTrailingUnit

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.LibTrailingUnit
-- ==== Proof.LibGramMatmul.lean ====
/-
  A batched product of two stacks of matrices that share their ROW axis, read at an index: for operands
  `lhs : [B, K, M]` and `rhs : [B, K, N]`, batch axis 0 on both and the MIDDLE axis contracted on both,
      out[b, m, n] = Σ_k lhs[b, k, m] · rhs[b, k, n]           (per batch, the product lhsᵀ · rhs),
  on the extended reals: the shape of a Gram matrix `xᵀ x`, or of any second-moment matrix over rows.

  The dimension numbers enter only through how the record's operand indices `lhsIdx` / `rhsIdx` read the output
  index and the contraction position: six coordinate facts (the batch coordinate of each operand is the output's; the
  contracted coordinate of each is the contraction position; the free coordinate of the left is the output's second,
  of the right the output's third), taken as hypotheses so that the lemma applies to any record with these numbers
  at any extents. The contraction shape has one axis (`hr`) of extent `K` (`hs`), and the sum over contraction
  positions is re-indexed along that axis's coordinate.

  • `contr_sum`: the sum over the record's contraction positions is the sum over `k : Fin K`.
  • `matmul_zero_at`: the device's matrix unit accumulating into the zero splat is that sum.
  • `dotGeneral_at`: so is the host's `dot_general`.
-/
import Idealize.ShloMosaic.PureOps.Ideal.Laws
import Idealize.ShloMosaic.Lib.ValueIdx

noncomputable section

open scoped BigOperators

namespace Cert.LibGramMatmul

open Idealize.ShloMosaic Idealize.ShloMosaic.ValueIdx

variable {B K M N : ℕ} (D : DotDims ⟨3, ![B, K, M]⟩ ⟨3, ![B, K, N]⟩ ⟨3, ![B, M, N]⟩)
  (hr : D.contr.rank = 1) (hs : D.contr.size ⟨0, by omega⟩ = K)
  (hl0 : ∀ (i : (⟨3, ![B, M, N]⟩ : Shape).Idx) (q : D.contr.Idx), (D.lhsIdx i q 0).val = (i 0).val)
  (hl1 : ∀ (i : (⟨3, ![B, M, N]⟩ : Shape).Idx) (q : D.contr.Idx), (D.lhsIdx i q 1).val = (q ⟨0, by omega⟩).val)
  (hl2 : ∀ (i : (⟨3, ![B, M, N]⟩ : Shape).Idx) (q : D.contr.Idx), (D.lhsIdx i q 2).val = (i 1).val)
  (hr0 : ∀ (i : (⟨3, ![B, M, N]⟩ : Shape).Idx) (q : D.contr.Idx), (D.rhsIdx i q 0).val = (i 0).val)
  (hr1 : ∀ (i : (⟨3, ![B, M, N]⟩ : Shape).Idx) (q : D.contr.Idx), (D.rhsIdx i q 1).val = (q ⟨0, by omega⟩).val)
  (hr2 : ∀ (i : (⟨3, ![B, M, N]⟩ : Shape).Idx) (q : D.contr.Idx), (D.rhsIdx i q 2).val = (i 2).val)

include hs hl0 hl1 hl2 hr0 hr1 hr2 in
/-- The sum over the record's contraction positions, at output index `(b, m, n)`, is the sum over the shared row
    coordinate `k` of `lhs[b, k, m] · rhs[b, k, n]`. -/
theorem contr_sum (lhs : (⟨3, ![B, K, M]⟩ : Shape).Idx → EReal) (rhs : (⟨3, ![B, K, N]⟩ : Shape).Idx → EReal)
    (b : Fin B) (m : Fin M) (n : Fin N) :
    ∑ q : D.contr.Idx, lhs (D.lhsIdx (ix3 b m n) q) * rhs (D.rhsIdx (ix3 b m n) q)
      = ∑ k : Fin K, lhs (ix3 b k m) * rhs (ix3 b k n) := by
  rw [← Equiv.sum_comp (contrEquiv1 D K hr hs).symm]
  refine Finset.sum_congr rfl fun k _ => ?_
  have hk := contrEquiv1_symm_val D K hr hs k
  have el : D.lhsIdx (ix3 b m n) ((contrEquiv1 D K hr hs).symm k) = ix3 b k m := funext fun a => Fin.ext (by
    match a with
    | ⟨0, _⟩ => exact hl0 _ _
    | ⟨1, _⟩ => exact (hl1 _ _).trans hk
    | ⟨2, _⟩ => exact hl2 _ _)
  have er : D.rhsIdx (ix3 b m n) ((contrEquiv1 D K hr hs).symm k) = ix3 b k n := funext fun a => Fin.ext (by
    match a with
    | ⟨0, _⟩ => exact hr0 _ _
    | ⟨1, _⟩ => exact (hr1 _ _).trans hk
    | ⟨2, _⟩ => exact hr2 _ _)
  rw [el, er]

include hs hl0 hl1 hl2 hr0 hr1 hr2 in
/-- The device's matrix unit, accumulating into the zero splat, read at `(b, m, n)`. -/
theorem matmul_zero_at {φ₁ φ₂ : FTy} (prec : Option ContractPrecision)
    (lhs : FVec Ideal ⟨3, ![B, K, M]⟩ φ₁) (rhs : FVec Ideal ⟨3, ![B, K, N]⟩ φ₂) (b : Fin B) (m : Fin M) (n : Fin N) :
    matmul D prec lhs rhs (constant (F := Ideal) ⟨3, ![B, M, N]⟩ .f32 0x00000000#32) (ix3 b m n)
      = ∑ k : Fin K, lhs (ix3 b k m) * rhs (ix3 b k n) :=
  (Ideal.matmul_constant_zero_apply D prec lhs rhs (ix3 b m n)).trans
    (contr_sum D hr hs hl0 hl1 hl2 hr0 hr1 hr2 lhs rhs b m n)

include hs hl0 hl1 hl2 hr0 hr1 hr2 in
/-- The host's `dot_general` with the same dimension numbers, read at `(b, m, n)`. -/
theorem dotGeneral_at {φ₁ φ₂ : FTy} (prec : Option ContractPrecision)
    (lhs : FVec Ideal ⟨3, ![B, K, M]⟩ φ₁) (rhs : FVec Ideal ⟨3, ![B, K, N]⟩ φ₂) (b : Fin B) (m : Fin M) (n : Fin N) :
    Host.dotGeneral (F := Ideal) D prec lhs rhs (ix3 b m n) = ∑ k : Fin K, lhs (ix3 b k m) * rhs (ix3 b k n) :=
  (Ideal.dotGeneral_apply D prec .single lhs rhs (ix3 b m n)).trans
    (contr_sum D hr hs hl0 hl1 hl2 hr0 hr1 hr2 lhs rhs b m n)

end Cert.LibGramMatmul

end
-- ==== Proof.Payload.lean ====
/-
  What the kernel body computes from the block it loads, entry by entry.

  A grid point holds two batches: a block `x` of shape [2, 512, 768]. The body squares it, sums the squares over the
  feature axis (one number per token), keeps that axis as a unit axis, adds ε on the left and takes the square root:
  the column of token weights, shape [2, 512, 1]. It spreads the column back over the 768 features, multiplies the
  block by it, and hands the weighted block and the block itself to the matrix unit, which contracts the token axis
  of both, batch by batch, into a zero accumulator. (The two operands pass through a narrowing of the float format on
  the way; on the extended reals that is the identity.) So the entry (b, d, e) it stores is
      Σ_l (x[b,l,d] · sqrt (ε + Σ_j x[b,l,j]·x[b,l,j])) · x[b,l,e],
  the specification's weighted Gram entry of the block.
-/
import proofs.«139196_j89472758710312_2_alg».proof.Proof.Gen.KernelIdeal.Skeleton
import proofs.«139196_j89472758710312_2_alg».proof.Proof.Spec
import proofs.«139196_j89472758710312_2_alg».proof.Proof.LibTrailingUnit
import proofs.«139196_j89472758710312_2_alg».proof.Proof.LibGramMatmul
import Idealize.ShloMosaic.PureOps.Ideal.Laws
import Idealize.ShloMosaic.Lib.ValueIdx

noncomputable section

open scoped BigOperators

namespace Cert.KernelIdeal.Payload

open Cert.KernelIdeal Cert.KernelIdeal.Gen
open Idealize.ShloMosaic Idealize.ShloMosaic.ValueIdx Cert.WeightedGram

/-! ## How the matrix unit's dimension numbers read its operands

Batch axis 0 on both operands, the token axis (axis 1) contracted on both, the feature axes free: at output entry
`i = (b, d, e)` and contraction position `q` the left operand is read at (b, q, d) and the right at (b, q, e). -/

theorem lhs_batch (i : S2x768x768.Idx) (q : dot_S2x512x768_S2x512x768_S2x768x768_1_1_2_2_0_0.contr.Idx) :
    (dot_S2x512x768_S2x512x768_S2x768x768_1_1_2_2_0_0.lhsIdx i q 0).val = (i 0).val := by
  unfold DotDims.lhsIdx
  rw [dif_pos (show (0 : Fin S2x512x768.rank) ∈ dot_S2x512x768_S2x512x768_S2x768x768_1_1_2_2_0_0.lhsBatch by decide)]
  rfl
theorem lhs_token (i : S2x768x768.Idx) (q : dot_S2x512x768_S2x512x768_S2x768x768_1_1_2_2_0_0.contr.Idx) :
    (dot_S2x512x768_S2x512x768_S2x768x768_1_1_2_2_0_0.lhsIdx i q 1).val = (q ⟨0, by decide⟩).val :=
  dot_S2x512x768_S2x512x768_S2x768x768_1_1_2_2_0_0.lhsIdx_val_of_single rfl i q
theorem lhs_feature (i : S2x768x768.Idx) (q : dot_S2x512x768_S2x512x768_S2x768x768_1_1_2_2_0_0.contr.Idx) :
    (dot_S2x512x768_S2x512x768_S2x768x768_1_1_2_2_0_0.lhsIdx i q 2).val = (i 1).val := by
  unfold DotDims.lhsIdx
  rw [dif_neg (show ¬(2 : Fin S2x512x768.rank) ∈ dot_S2x512x768_S2x512x768_S2x768x768_1_1_2_2_0_0.lhsBatch by decide),
    dif_pos (show (2 : Fin S2x512x768.rank) ∈ dot_S2x512x768_S2x512x768_S2x768x768_1_1_2_2_0_0.lhsNonContracting by decide)]
  rfl
theorem rhs_batch (i : S2x768x768.Idx) (q : dot_S2x512x768_S2x512x768_S2x768x768_1_1_2_2_0_0.contr.Idx) :
    (dot_S2x512x768_S2x512x768_S2x768x768_1_1_2_2_0_0.rhsIdx i q 0).val = (i 0).val := by
  unfold DotDims.rhsIdx
  rw [dif_pos (show (0 : Fin S2x512x768.rank) ∈ dot_S2x512x768_S2x512x768_S2x768x768_1_1_2_2_0_0.rhsBatch by decide)]
  rfl
theorem rhs_token (i : S2x768x768.Idx) (q : dot_S2x512x768_S2x512x768_S2x768x768_1_1_2_2_0_0.contr.Idx) :
    (dot_S2x512x768_S2x512x768_S2x768x768_1_1_2_2_0_0.rhsIdx i q 1).val = (q ⟨0, by decide⟩).val :=
  dot_S2x512x768_S2x512x768_S2x768x768_1_1_2_2_0_0.rhsIdx_val_of_single rfl i q
theorem rhs_feature (i : S2x768x768.Idx) (q : dot_S2x512x768_S2x512x768_S2x768x768_1_1_2_2_0_0.contr.Idx) :
    (dot_S2x512x768_S2x512x768_S2x768x768_1_1_2_2_0_0.rhsIdx i q 2).val = (i 2).val := by
  unfold DotDims.rhsIdx
  rw [dif_neg (show ¬(2 : Fin S2x512x768.rank) ∈ dot_S2x512x768_S2x512x768_S2x768x768_1_1_2_2_0_0.rhsBatch by decide),
    dif_pos (show (2 : Fin S2x512x768.rank) ∈ dot_S2x512x768_S2x512x768_S2x768x768_1_1_2_2_0_0.rhsNonContracting by decide)]
  rfl

/-! ## The token weights -/

/-- The squared length of token (b, l): the lane sum of the block's squares over the feature axis. -/
theorem sumsq_at (x : FVec Ideal S2x512x768 .f32) (b : Fin 2) (l : Fin 512) :
    multiReduction .add [2] S2x512 (mulf x x) 0x00000000#32 reduces_S2x512x768_S2x512 (.inl rfl) rfl (ix2 b l)
      = ∑ j : Fin 768, x (ix3 b l j) * x (ix3 b l j) := by
  refine (Ideal.multiReduction_add_single (mulf x x) 0x00000000#32 reduces_S2x512x768_S2x512 (.inl rfl) rfl (ix2 b l)).trans ?_
  refine Finset.sum_congr rfl fun j _ => ?_
  have e : reduces_S2x512x768_S2x512.lift (ix2 b l) j = ix3 b l j :=
    funext fun a => Fin.ext (by match a with | ⟨0, _⟩ => rfl | ⟨1, _⟩ => rfl | ⟨2, _⟩ => rfl)
  rw [e]
  rfl

/-- The column of token weights as the body computes it: the squared lengths with the feature axis kept as a unit
    axis, ε added on the left, the square root taken. -/
def weightColumn (x : FVec Ideal S2x512x768 .f32) : FVec Ideal S2x512x1 .f32 :=
  sqrt (addf (broadcast S2x512x1 (Scalar.ofBits .f32 0x3727C5AC#32))
    (shapeCast S2x512x1 (multiReduction .add [2] S2x512 (mulf x x) 0x00000000#32 reduces_S2x512x768_S2x512 (.inl rfl) rfl)
      shapeCasts_S2x512_S2x512x1))

/-- Its entry for token (b, l) is the specification's weight of that token. -/
theorem weightColumn_at (x : FVec Ideal S2x512x768 .f32) (b : Fin 2) (l : Fin 512) (u : Fin 1) :
    weightColumn x (ix3 b l u) = weight x b l := by
  have h : shapeCast S2x512x1 (multiReduction .add [2] S2x512 (mulf x x) 0x00000000#32 reduces_S2x512x768_S2x512 (.inl rfl) rfl)
        shapeCasts_S2x512_S2x512x1 (ix3 b l u) = ∑ j : Fin 768, x (ix3 b l j) * x (ix3 b l j) :=
    (Cert.LibTrailingUnit.shapeCast_ab_ab1_apply _ shapeCasts_S2x512_S2x512x1 b l u).trans (sumsq_at x b l)
  exact congrArg (fun s => Ideal.sqrt (Ideal.ofBits .f32 0x3727C5AC#32 + s)) h

/-- Spread back over the features (after the format's narrowing, the identity here), the column reads the token's
    weight at every feature. -/
theorem spread_at (x : FVec Ideal S2x512x768 .f32) (b : Fin 2) (l : Fin 512) (d : Fin 768) :
    broadcastTo S2x512x768 (truncf .bf16 (weightColumn x) bitsLt_bf16_f32) broadcasts_S2x512x1_S2x512x768 (ix3 b l d)
      = weight x b l :=
  (Cert.LibTrailingUnit.broadcastTo_ab1_abc_apply _ broadcasts_S2x512x1_S2x512x768 b l d).trans
    (weightColumn_at x b l (0 : Fin 1))

/-! ## The stored value -/

/-- The body's stored value is the matrix unit's product of the weighted block with the block. -/
theorem payload_eq (x : FVec Ideal S2x512x768 .f32) :
    k0_pay1 (F := Ideal) x
      = matmul dot_S2x512x768_S2x512x768_S2x768x768_1_1_2_2_0_0 none
          (mulf (truncf .bf16 x bitsLt_bf16_f32)
            (broadcastTo S2x512x768 (truncf .bf16 (weightColumn x) bitsLt_bf16_f32) broadcasts_S2x512x1_S2x512x768))
          (truncf .bf16 x bitsLt_bf16_f32) (constant (F := Ideal) S2x768x768 .f32 0x00000000#32) := rfl

/-- THE STORED ENTRY (b, d, e) is the weighted Gram entry of the loaded block. -/
theorem payload_at (x : FVec Ideal S2x512x768 .f32) (b : Fin 2) (d e : Fin 768) :
    k0_pay1 (F := Ideal) x (ix3 b d e) = gramAt x b d e := by
  refine (congrFun (payload_eq x) (ix3 b d e)).trans ?_
  refine (Cert.LibGramMatmul.matmul_zero_at dot_S2x512x768_S2x512x768_S2x768x768_1_1_2_2_0_0 rfl rfl
    lhs_batch lhs_token lhs_feature rhs_batch rhs_token rhs_feature none _ _ b d e).trans ?_
  unfold gramAt
  refine Finset.sum_congr rfl fun l _ => ?_
  exact congrArg (fun w => x (ix3 b l d) * w * x (ix3 b l e)) (spread_at x b l d)

end Cert.KernelIdeal.Payload

end
-- ==== Proof.Blocks.lean ====
/-
  From the grid's blocks to the whole output array.

  The grid has 16 points. Point `t` stages batches `2t` and `2t + 1` of the input (all tokens, all features) and
  writes back batches `2t` and `2t + 1` of the output (all 768 × 768 entries): on both windows the block index is
  (t, 0, 0). So entry (b', d, e) of what point `t` writes is the weighted Gram entry of the loaded block at batch
  `b'`, and since such an entry depends only on its own batch, and batch `b'` of the block is batch `2t + b'` of the
  input, it is the weighted Gram entry (2t + b', d, e) of the whole input: point `t` writes block `t` of the one array
  `gram input`. Batch `b` of the output lies in the block of point `b / 2`, so the sixteen blocks cover the output,
  and after the run the output array is `gram input`.
-/
import proofs.«139196_j89472758710312_2_alg».proof.Proof.Gen.KernelIdeal.Value
import proofs.«139196_j89472758710312_2_alg».proof.Proof.Payload
import Idealize.ShloMosaic.Lib.Pipeline.Value

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx Cert.WeightedGram
open Idealize.ShloMosaic.Pipeline (Dat)

variable (m : (ℓ : Loc nD τ sig) → Buf (Elt Ideal) ℓ) (ρ : Dev nD → PrngReg)

/-- The body loads and stores through rectangles at the origin. -/
theorem origin : (![0, 0, 0] : Fin 3 → Nat) = fun _ => 0 := funext fun a => by fin_cases a <;> rfl

/-- The printed index maps, decided over the grid: at point `t` both windows' block index is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input as the region finds it, as an array of extended reals. -/
abbrev input (c : Dev nD) : S32x512x768.Idx → EReal := V m c main_arg0

/-- Batch `b'` of point `t`'s input block is batch `2t + b'` of the input. -/
theorem loaded_at (c : Dev nD) (t : Fin cfg0.N) (b' : Fin 2) (g : Fin 32) (hg : g.val = 2 * t.val + b'.val)
    (l : Fin 512) (j : Fin 768) : iblk m c 0 t (ix3 b' l j) = input m c (ix3 g l j) := by
  obtain ⟨e0, e1, e2, -, -, -⟩ := block_index t
  show V m c main_arg0 (((cfg0.win 0).blk t).view.emb (ix3 b' l j)) = V m c main_arg0 (ix3 g l j)
  refine congrArg (V m c main_arg0) (funext fun a => Fin.ext ?_)
  match a with
  | ⟨0, _⟩ => show win0_0.index t (0 : Fin 3) * 2 + 1 * b'.val = g.val; omega
  | ⟨1, _⟩ => show win0_0.index t (1 : Fin 3) * 512 + 1 * l.val = l.val; omega
  | ⟨2, _⟩ => show win0_0.index t (2 : Fin 3) * 768 + 1 * j.val = j.val; omega

/-- WHAT POINT `t` WRITES BACK is block `t` of the weighted Gram matrix of the input. -/
theorem flushed_eq (c : Dev nD) (t : Fin cfg0.N) :
    (dats m 0 c).flushed 1 t = ((cfg0.win 1).blk t).view.read (Elt Ideal) (gram (input m c)) := by
  rw [flushed1]
  unfold out0_1
  rw [View.canon_unit_zero origin]
  simp only [View.ld_unit_zero (S := S2x512x768) origin]
  obtain ⟨-, -, -, e0, e1, e2⟩ := block_index t
  have hN : grid0.N = 16 := N_0
  have ht : t.val < 16 := hN ▸ t.isLt
  funext y
  obtain ⟨b', d, e, rfl⟩ : ∃ (b' : Fin 2) (d e : Fin 768), y = ix3 b' d e := ⟨y 0, y 1, y 2, eq_ix3 y⟩
  show k0_pay1 (iblk m c 0 t) (ix3 b' d e) = gram (input m c) (((cfg0.win 1).blk t).view.emb (ix3 b' d e))
  have hb : b'.val < 2 := b'.isLt
  have hout : ((cfg0.win 1).blk t).view.emb (ix3 b' d e) = ix3 (⟨2 * t.val + b'.val, by omega⟩ : Fin 32) d e :=
    funext fun a => Fin.ext (by
      match a with
      | ⟨0, _⟩ => show win0_1.index t (0 : Fin 3) * 2 + 1 * b'.val = 2 * t.val + b'.val; omega
      | ⟨1, _⟩ => show win0_1.index t (1 : Fin 3) * 768 + 1 * d.val = d.val; omega
      | ⟨2, _⟩ => show win0_1.index t (2 : Fin 3) * 768 + 1 * e.val = e.val; omega)
  rw [hout, gram_ix3]
  refine (Cert.KernelIdeal.Payload.payload_at (iblk m c 0 t) b' d e).trans ?_
  exact gramAt_congr (input m c) (iblk m c 0 t) ⟨2 * t.val + b'.val, by omega⟩ b'
    (fun l j => loaded_at m c t b' ⟨2 * t.val + b'.val, by omega⟩ rfl l j) d e

/-- An index of the output is in point `t`'s block iff each coordinate is in the block's range on its axis. -/
theorem mem_block (t : Fin cfg0.N) (i : S32x768x768.Idx) :
    i ∈ ((cfg0.win 1).blk t).view.set ↔ ∀ a : Fin 3, win0_1.index t a * S2x768x768.size a ≤ (i a).val
      ∧ (i a).val < win0_1.index t a * S2x768x768.size a + S2x768x768.size a := by
  show i ∈ ((View.whole main_v0).slice (win0_1.rect t)).set ↔ _
  rw [View.set_slice_whole, Rect.mem_set_unit]
  exact Iff.rfl

/-- Every index of the output is in some point's block: batch `b` in the block of point `b / 2`. -/
theorem covered (i : S32x768x768.Idx) :
    ∃ t : Fin cfg0.N, (cfg0.win 1).flush t = true ∧ i ∈ ((cfg0.win 1).blk t).view.set := by
  have hN : grid0.N = 16 := N_0
  have h0 : (i 0).val < 32 := (i 0).isLt
  have h1 : (i 1).val < 768 := (i 1).isLt
  have h2 : (i 2).val < 768 := (i 2).isLt
  have hlt : (i 0).val / 2 < grid0.N := by rw [hN]; omega
  refine ⟨⟨(i 0).val / 2, hlt⟩, flush0_1 _, ?_⟩
  obtain ⟨-, -, -, e0, e1, e2⟩ := block_index ⟨(i 0).val / 2, hlt⟩
  have e0' : win0_1.index ⟨(i 0).val / 2, hlt⟩ (0 : Fin 3) = (i 0).val / 2 := e0
  rw [mem_block]
  intro a
  match a with
  | ⟨0, _⟩ =>
    show win0_1.index ⟨(i 0).val / 2, hlt⟩ (0 : Fin 3) * 2 ≤ (i 0).val
      ∧ (i 0).val < win0_1.index ⟨(i 0).val / 2, hlt⟩ (0 : Fin 3) * 2 + 2
    omega
  | ⟨1, _⟩ =>
    show win0_1.index ⟨(i 0).val / 2, hlt⟩ (1 : Fin 3) * 768 ≤ (i 1).val
      ∧ (i 1).val < win0_1.index ⟨(i 0).val / 2, hlt⟩ (1 : Fin 3) * 768 + 768
    omega
  | ⟨2, _⟩ =>
    show win0_1.index ⟨(i 0).val / 2, hlt⟩ (2 : Fin 3) * 768 ≤ (i 2).val
      ∧ (i 2).val < win0_1.index ⟨(i 0).val / 2, hlt⟩ (2 : Fin 3) * 768 + 768
    omega

/-- THE OUTPUT ARRAY after the run is the weighted Gram matrix of the input. -/
theorem final (c : Dev nD) : (dats m 0 c).arrAt 1 cfg0.N = gram (input m c) :=
  (dats m 0 c).arrAt_eq_of_cover 1 (gram (input m c)) (fun t _ => flushed_eq m c t) (covered)

/-- The kernel's run, read: the output at the weighted Gram matrix of the input as launched, the input unchanged. -/
theorem run : θ_run defs (onTc (τ := τ) (main (F := Ideal))) ⟨m, fun _ => 0, ρ⟩ fun r => ∀ c : Dev nD,
      r.2.mem ((c : Thread nD τ).loc main_v0) = gram (m ((c : Thread nD τ).loc main_arg0) : S32x512x768.Idx → EReal)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Blocks

end
-- ==== Proof.RefGram.lean ====
/-
  The reference computes the weighted Gram matrix.

  The reference squares the input, sums the squares over the feature axis from zero, adds ε on the left, takes the
  square root (the token weights, one per (batch, token)), spreads the weights back over the feature axis, multiplies
  the input by them, and contracts the product with the input over the token axis, batch by batch. Read at an entry
  (b, d, e), stage by stage from the last one back, that is
      Σ_l (x[b,l,d] · sqrt (ε + (0 + Σ_j x[b,l,j]·x[b,l,j]))) · x[b,l,e],
  which is the specification's term once the sum's initial zero is dropped (`0 + s = s` on the extended reals).

  The index functions the stage lemmas compose are identified with coordinates first: the contraction reads the left
  operand at (b, l, d) and the right at (b, l, e); the two broadcasts read the weight of (b, l); the reduction reads
  (b, l, j) for each feature j.
-/
import proofs.«139196_j89472758710312_2_alg».proof.Proof.Gen.ReferenceIdeal.Read
import proofs.«139196_j89472758710312_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.WeightedGram

/-- The contraction reads its left operand, at output entry (b, d, e) and token l, at (b, l, d). -/
theorem left_at (b : Fin 32) (d e : Fin 768) (l : Fin 512) : lidx_main_v8 (ix3 b d e) l = ix3 b l d :=
  funext fun a => Fin.ext (by match a with | ⟨0, _⟩ => rfl | ⟨1, _⟩ => rfl | ⟨2, _⟩ => rfl)

/-- … and its right operand at (b, l, e). -/
theorem right_at (b : Fin 32) (d e : Fin 768) (l : Fin 512) : ridx_main_v8 (ix3 b d e) l = ix3 b l e :=
  funext fun a => Fin.ext (by match a with | ⟨0, _⟩ => rfl | ⟨1, _⟩ => rfl | ⟨2, _⟩ => rfl)

/-- The two broadcasts that spread the weights over the feature axis read, at (b, l, d), the weight of (b, l). -/
theorem spread_at (b : Fin 32) (l : Fin 512) (d : Fin 768) : idx_main_v5 (idx_main_v6 (ix3 b l d)) = ix2 b l :=
  funext fun a => Fin.ext (by match a with | ⟨0, _⟩ => rfl | ⟨1, _⟩ => rfl)

/-- The reduction over the feature axis reads, for token (b, l) and feature j, the entry (b, l, j). -/
theorem feature_at (b : Fin 32) (l : Fin 512) (j : Fin 768) : idx_main_v1 (ix2 b l) j = ix3 b l j :=
  funext fun a => Fin.ext (by match a with | ⟨0, _⟩ => rfl | ⟨1, _⟩ => rfl | ⟨2, _⟩ => rfl)

/-- The square-root stage, at token (b, l), is the specification's weight. -/
theorem weight_stage (x0 : (⟨S32x512x768, .f32⟩ : BufTy).Contents (Elt Ideal)) (b : Fin 32) (l : Fin 512) :
    val_main_v4 (F := Ideal) x0 (ix2 b l) = weight x0 b l := by
  rw [val_main_v4_apply, val_main_v3_apply, val_main_v2_apply, val_main_cst_0_apply, val_main_v1_apply, val_main_cst_apply]
  unfold weight
  simp only [val_main_v0_apply, feature_at, Ideal.hostUnary_sqrt_def, Ideal.addf_def, Ideal.mulf_def, Ideal.ofBits_def,
    Ideal.ofBits_zero_f32, zero_add]

/-- The reference's result stage is the weighted Gram matrix of the input. -/
theorem result_stage (x0 : (⟨S32x512x768, .f32⟩ : BufTy).Contents (Elt Ideal)) :
    val_main_v8 (F := Ideal) x0 = gram x0 := by
  funext i
  obtain ⟨b, d, e, rfl⟩ : ∃ (b : Fin 32) (d e : Fin 768), i = ix3 b d e := ⟨i 0, i 1, i 2, eq_ix3 i⟩
  rw [val_main_v8_apply, gram_ix3]
  unfold gramAt
  refine Finset.sum_congr rfl fun l _ => ?_
  rw [left_at, right_at, val_main_v7_apply, val_main_v6_apply, val_main_v5_apply, spread_at, weight_stage]
  rfl

end Cert.ReferenceIdeal.RefValue

end
-- ==== Proof.lean ====
/-
  The kernel and its reference compute the same weighted Gram matrices.

  For an input `x` of 32 batches of 512 tokens with 768 features, let token `l` of batch `b` weigh
  `w[b,l] = sqrt (ε + Σ_j x[b,l,j]²)`. Both programs end with
      out[b,d,e] = Σ_l (x[b,l,d] · w[b,l]) · x[b,l,e]
  in their result array (`Cert.WeightedGram.gram`, Proof/Spec.lean), read on the extended reals.

  • The kernel walks the batches two at a time. At each of its 16 grid points the body forms the token weights of the
    two batches it holds, weights the block by them and contracts the token axis of the weighted block with the
    block's on the matrix unit (Proof/Payload.lean, over Proof/LibTrailingUnit.lean for the kept unit axis and
    Proof/LibGramMatmul.lean for the product). An entry depends only on its own batch, so what a point writes is its
    block of the one array `gram x`, and the blocks cover the output (Proof/Blocks.lean).
  • The reference forms all the weights at once and contracts the weighted input with the input in one batched
    product; read stage by stage at an entry it is the same term, after dropping the zero its sum starts from
    (Proof/RefGram.lean).
  Neither side regroups a product or moves a factor across a sum, so no input needs to be finite for the two results
  to agree, and the precondition is not opened.

  The three frame claims are the generated frame runs (the reference's is its generated run with the result dropped);
  the kernel's idealization rewrote no operation, so there is nothing to preserve.
-/
import proofs.«139196_j89472758710312_2_alg».proof.Defs
import proofs.«139196_j89472758710312_2_alg».proof.Proof.Gen.Kernel
import proofs.«139196_j89472758710312_2_alg».proof.Proof.Gen.Kernel.Skeleton
import proofs.«139196_j89472758710312_2_alg».proof.Proof.Gen.Kernel.Launch
import proofs.«139196_j89472758710312_2_alg».proof.Proof.Gen.Kernel.Points
import proofs.«139196_j89472758710312_2_alg».proof.Proof.Gen.Kernel.Frame
import proofs.«139196_j89472758710312_2_alg».proof.Proof.Gen.KernelIdeal
import proofs.«139196_j89472758710312_2_alg».proof.Proof.Gen.KernelIdeal.Skeleton
import proofs.«139196_j89472758710312_2_alg».proof.Proof.Gen.KernelIdeal.Launch
import proofs.«139196_j89472758710312_2_alg».proof.Proof.Gen.KernelIdeal.Points
import proofs.«139196_j89472758710312_2_alg».proof.Proof.Gen.KernelIdeal.Frame
import proofs.«139196_j89472758710312_2_alg».proof.Proof.Gen.ReferenceIdeal
import proofs.«139196_j89472758710312_2_alg».proof.Proof.Gen.Pre_finite_inputs
import proofs.«139196_j89472758710312_2_alg».proof.Proof.Gen.KernelIdeal.Value
import proofs.«139196_j89472758710312_2_alg».proof.Proof.Gen.ReferenceIdeal.Run
import proofs.«139196_j89472758710312_2_alg».proof.Proof.Gen.ReferenceIdeal.Read
import proofs.«139196_j89472758710312_2_alg».proof.Proof.Blocks
import proofs.«139196_j89472758710312_2_alg».proof.Proof.RefGram
import Idealize.ShloMosaic.Adequacy
import Idealize.ShloMosaic.Init

noncomputable section

namespace Cert.Proof

open Idealize.ShloMosaic Idealize.SL.Sem Cert.WeightedGram

/-- The kernel as printed runs and leaves its input unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its input unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From inputs that agree, the kernel's output array ends at the weighted Gram matrix of its input (Proof/Blocks.lean)
    and the reference's result at the weighted Gram matrix of its own (Proof/RefGram.lean): one array. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_stage, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
